-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x165 : Shape := ⟨2, ![200000, 165]⟩
abbrev S2x400000 : Shape := ⟨2, ![2, 400000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S200000x165 : S_.BroadcastsInDim S200000x165 (![] : Fin 0 → Fin S200000x165.rank)
  reducesTo_S200000x165_S_d0_1 : S200000x165.ReducesTo [0, 1] S_
  h_S_ : 0 < S_.numel
  bcast_S_S165x128 : S_.BroadcastsInDim S165x128 (![] : Fin 0 → Fin S165x128.rank)
  reducesTo_S165x128_S_d0_1 : S165x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S200000x165 .f32) (main_arg1 : IVec S2x400000 32) (main_arg2 : FVec F S165x128 .f32) (main_arg3 : FVec F S128 .f32) (main_arg4 : FVec F S128x2 .f32) (main_arg5 : FVec F S2 .f32) : IVec S_ 1 :=
  let main_v0 : FVec F S200000x165 .f32 := Host.absf main_arg0
  let main_cst : FVec F S_ .f32 := constant S_ .f32 0x7F800000#32
  let main_v1 : FVec F S200000x165 .f32 := broadcastInDim S200000x165 ![] bcast_S_S200000x165 main_cst
  let main_v2 : IVec S200000x165 1 := cmpf .olt main_v0 main_v1
  let main_c : IVec S_ 1 := constantI S_ 1 1#1
  let main_v3 : IVec S_ 1 := (fun x v => Host.reduce IntOp.andi x v reducesTo_S200000x165_S_d0_1 h_S_) main_v2 main_c
  let main_v4 : FVec F S165x128 .f32 := Host.absf main_arg2
  let main_cst_0 : FVec F S_ .f32 := constant S_ .f32 0x7F800000#32
  let main_v5 : FVec F S165x128 .f32 := broadcastInDim S165x128 ![] bcast_S_S165x128 main_cst_0
  let main_v6 : IVec S165x128 1 := cmpf .olt main_v4 main_v5
  let main_c_1 : IVec S_ 1 := constantI S_ 1 1#1
  let main_v7 : IVec S_ 1 := (fun x v => Host.reduce IntOp.andi x v reducesTo_S165x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S200000x165 : Shape := ⟨2, ![200000, 165]⟩
abbrev S2x400000 : Shape := ⟨2, ![2, 400000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S200000 : Shape := ⟨1, ![200000]⟩
abbrev S1x400000 : Shape := ⟨2, ![1, 400000]⟩
abbrev S400000 : Shape := ⟨1, ![400000]⟩
abbrev S600000 : Shape := ⟨1, ![600000]⟩
abbrev S_ : Shape := ⟨0, ![]⟩
abbrev S600000x1 : Shape := ⟨2, ![600000, 1]⟩
abbrev S200000x128 : Shape := ⟨2, ![200000, 128]⟩
abbrev S8000x165 : Shape := ⟨2, ![8000, 165]⟩
abbrev S8000x128 : Shape := ⟨2, ![8000, 128]⟩
abbrev S600000x128 : Shape := ⟨2, ![600000, 128]⟩
abbrev S1x128 : Shape := ⟨2, ![1, 128]⟩
abbrev S200000x2 : Shape := ⟨2, ![200000, 2]⟩
abbrev S8000x2 : Shape := ⟨2, ![8000, 2]⟩
abbrev S600000x2 : Shape := ⟨2, ![600000, 2]⟩
abbrev S1x2 : Shape := ⟨2, ![1, 2]⟩

abbrev nBuf : Space → Nat
  | .hbm => 79
  | .vmem => 10
  | .smem => 0
  | _ => 0

abbrev bufTy : (tb : Table) → Fin (tcTables nBuf tb) → BufTy
  | .hbm, ⟨0, _⟩ => ⟨S200000x165, .f32⟩
  | .hbm, ⟨1, _⟩ => ⟨S2x400000, .i32⟩
  | .hbm, ⟨2, _⟩ => ⟨S165x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S200000, .i32⟩
  | .hbm, ⟨7, _⟩ => ⟨S1x400000, .i32⟩
  | .hbm, ⟨8, _⟩ => ⟨S400000, .i32⟩
  | .hbm, ⟨9, _⟩ => ⟨S600000, .i32⟩
  | .hbm, ⟨10, _⟩ => ⟨S1x400000, .i32⟩
  | .hbm, ⟨11, _⟩ => ⟨S400000, .i32⟩
  | .hbm, ⟨12, _⟩ => ⟨S600000, .i32⟩
  | .hbm, ⟨13, _⟩ => ⟨S_, .f32⟩
  | .hbm, ⟨14, _⟩ => ⟨S600000, .f32⟩
  | .hbm, ⟨15, _⟩ => ⟨S_, .f32⟩
  | .hbm, ⟨16, _⟩ => ⟨S200000, .f32⟩
  | .hbm, ⟨17, _⟩ => ⟨S600000x1, .i32⟩
  | .hbm, ⟨18, _⟩ => ⟨S200000, .f32⟩
  | .hbm, ⟨19, _⟩ => ⟨S200000, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000, .f32⟩
  | .hbm, ⟨38, _⟩ => ⟨S600000, .f32⟩
  | .hbm, ⟨39, _⟩ => ⟨S200000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x1, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S200000x128, .f32⟩
  | .hbm, ⟨54, _⟩ => ⟨S600000x1, .i32⟩
  | .hbm, ⟨55, _⟩ => ⟨S200000x128, .f32⟩
  | .hbm, ⟨56, _⟩ => ⟨S1x128, .f32⟩
  | .hbm, ⟨57, _⟩ => ⟨S200000x128, .f32⟩
  | .hbm, ⟨58, _⟩ => ⟨S200000x128, .f32⟩
  | .hbm, ⟨59, _⟩ => ⟨S200000x2, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x2, .f32⟩
  | .hbm, ⟨69, _⟩ => ⟨S600000x1, .f32⟩
  | .hbm, ⟨70, _⟩ => ⟨S600000x2, .f32⟩
  | .hbm, ⟨71, _⟩ => ⟨S600000x2, .f32⟩
  | .hbm, ⟨72, _⟩ => ⟨S_, .f32⟩
  | .hbm, ⟨73, _⟩ => ⟨S200000x2, .f32⟩
  | .hbm, ⟨74, _⟩ => ⟨S600000x1, .i32⟩
  | .hbm, ⟨75, _⟩ => ⟨S200000x2, .f32⟩
  | .hbm, ⟨76, _⟩ => ⟨S1x2, .f32⟩
  | .hbm, ⟨77, _⟩ => ⟨S200000x2, .f32⟩
  | .hbm, ⟨78, _⟩ => ⟨S200000x2, .f32⟩
  | .local _ .vmem, ⟨0, _⟩ => ⟨S8000x165, .f32⟩
  | .local _ .vmem, ⟨1, _⟩ => ⟨S8000x165, .f32⟩
  | .local _ .vmem, ⟨2, _⟩ => ⟨S165x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S128x2, .f32⟩
  | .local _ .vmem, ⟨8, _⟩ => ⟨S8000x2, .f32⟩
  | .local _ .vmem, ⟨9, _⟩ => ⟨S8000x2, .f32⟩
  | _, _ => ⟨S200000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x400000_S1x400000_0_0 : S2x400000.Slices ![0, 0] S1x400000
  shapeCasts_S1x400000_S400000 : S1x400000.ShapeCasts S400000
  concatenates_S400000_S200000_S600000_d0 : Shape.Concatenates [S400000, S200000] S600000 0
  slices_S2x400000_S1x400000_1_0 : S2x400000.Slices ![1, 0] S1x400000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  inb_S8000x165_S8000x165_0_0 : ∀ a, (![0, 0] : Fin 2 → Nat) a + S8000x165.size a ≤ S8000x165.size a
  h_S8000x165 : 0 < S8000x165.numel
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  inb_S8000x128_S8000x128_0_0 : ∀ a, (![0, 0] : Fin 2 → Nat) a + S8000x128.size a ≤ S8000x128.size a
  h_S8000x128 : 0 < S8000x128.numel
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  shapeCasts_S8000x128_S8000x128 : S8000x128.ShapeCasts S8000x128
  inb_S128x2_S128x2_0_0 : ∀ a, (![0, 0] : Fin 2 → Nat) a + S128x2.size a ≤ S128x2.size a
  h_S128x2 : 0 < S128x2.numel
  inb_S8000x2_S8000x2_0_0 : ∀ a, (![0, 0] : Fin 2 → Nat) a + S8000x2.size a ≤ S8000x2.size a
  h_S8000x2 : 0 < S8000x2.numel
  bcast_S600000x1_S600000x2_0_1 : S600000x1.BroadcastsInDim S600000x2 (![0, 1] : Fin 2 → Fin S600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  scatter_S200000_S600000x1_S600000_n_0_0_1_wf : ScatterDims.WF S200000 S600000x1 S600000 [] [0] [0] 1
  gather_S200000_S600000x1_S600000_n_0_n_n_0_1_1_wf : GatherDims.WF S200000 S600000x1 S600000 [] [0] [] [0] [] 1 ![1]
  dot_S8000x165_S165x128_S8000x128_1_0_0_1_n_n_wf : DotDims.WF S8000x165 S165x128 S8000x128 [1] [0] [0] [1] [] []
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S8000x128_S128x2_S8000x2_1_0_0_1_n_n_wf : DotDims.WF S8000x128 S128x2 S8000x2 [1] [0] [0] [1] [] []
  gather_S200000x2_S600000x1_S600000x2_1_0_n_n_0_1_12_wf : GatherDims.WF S200000x2 S600000x1 S600000x2 [1] [0] [] [0] [] 1 ![1, 2]
  scatter_S200000x2_S600000x1_S600000x2_1_0_0_1_wf : ScatterDims.WF S200000x2 S600000x1 S600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x165.size a ≤ S200000x165.size a
  hwx0_0 : ∀ i : grid0.Coords, EltTy.bits .f32 = 32 ∨ (Rect.block (s := S200000x165) S8000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x128.size a ≤ S165x128.size a
  hwx0_1 : ∀ i : grid0.Coords, EltTy.bits .f32 = 32 ∨ (Rect.block (s := S165x128) S165x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S200000x128.size a
  hwx0_2 : ∀ i : grid0.Coords, EltTy.bits .f32 = 32 ∨ (Rect.block (s := S200000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S200000x128.size a
  hwx1_0 : ∀ i : grid1.Coords, EltTy.bits .f32 = 32 ∨ (Rect.block (s := S200000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2.size a ≤ S128x2.size a
  hwx1_1 : ∀ i : grid1.Coords, EltTy.bits .f32 = 32 ∨ (Rect.block (s := S128x2) S128x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x2.size a ≤ S200000x2.size a
  hwx1_2 : ∀ i : grid1.Coords, EltTy.bits .f32 = 32 ∨ (Rect.block (s := S200000x2) S8000x2.size (cc1_transform_2 i) (hinb1_2 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def dot_S8000x165_S165x128_S8000x128_1_0_0_1_n_n : DotDims S8000x165 S165x128 S8000x128 where
  lhsContracting := [1]
  rhsContracting := [0]
  lhsNonContracting := [0]
  rhsNonContracting := [1]
  lhsBatch := []
  rhsBatch := []
  wf := dot_S8000x165_S165x128_S8000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S8000x128_S128x2_S8000x2_1_0_0_1_n_n : DotDims S8000x128 S128x2 S8000x2 where
  lhsContracting := [1]
  rhsContracting := [0]
  lhsNonContracting := [0]
  rhsNonContracting := [1]
  lhsBatch := []
  rhsBatch := []
  wf := dot_S8000x128_S128x2_S8000x2_1_0_0_1_n_n_wf
def gather_S200000x2_S600000x1_S600000x2_1_0_n_n_0_1_12 : GatherDims S200000x2 S600000x1 S600000x2 where
  offsetDims := [1]
  collapsedSliceDims := [0]
  operandBatchingDims := []
  startIndicesBatchingDims := []
  startIndexMap := [0]
  indexVectorDim := 1
  sliceSizes := ![1, 2]
  wf := gather_S200000x2_S600000x1_S600000x2_1_0_n_n_0_1_12_wf
def scatter_S200000x2_S600000x1_S600000x2_1_0_0_1 : ScatterDims S200000x2 S600000x1 S600000x2 where
  updateWindowDims := [1]
  insertedWindowDims := [0]
  scatterDimsToOperandDims := [0]
  indexVectorDim := 1
  wf := scatter_S200000x2_S600000x1_S600000x2_1_0_0_1_wf

abbrev win0_0 : Pipeline.Window sig grid0 :=
  Pipeline.Window.ofSpec (Memref.whole main_arg0) S8000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S8000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x165 : Shape := ⟨2, ![200000, 165]⟩
abbrev S2x400000 : Shape := ⟨2, ![2, 400000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S200000x128 : Shape := ⟨2, ![200000, 128]⟩
abbrev S200000 : Shape := ⟨1, ![200000]⟩
abbrev S1x400000 : Shape := ⟨2, ![1, 400000]⟩
abbrev S400000 : Shape := ⟨1, ![400000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S200000x2 : Shape := ⟨2, ![200000, 2]⟩
abbrev S600000x2 : Shape := ⟨2, ![600000, 2]⟩
abbrev S1x2 : Shape := ⟨2, ![1, 2]⟩

abbrev nBuf : Space → Nat
  | .hbm => 115
  | .vmem => 0
  | .smem => 0
  | _ => 0

abbrev bufTy : (tb : Table) → Fin (tcTables nBuf tb) → BufTy
  | .hbm, ⟨0, _⟩ => ⟨S200000x165, .f32⟩
  | .hbm, ⟨1, _⟩ => ⟨S2x400000, .i32⟩
  | .hbm, ⟨2, _⟩ => ⟨S165x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S200000x128, .f32⟩
  | .hbm, ⟨7, _⟩ => ⟨S200000, .i32⟩
  | .hbm, ⟨8, _⟩ => ⟨S1x400000, .i32⟩
  | .hbm, ⟨9, _⟩ => ⟨S400000, .i32⟩
  | .hbm, ⟨10, _⟩ => ⟨S600000, .i32⟩
  | .hbm, ⟨11, _⟩ => ⟨S1x400000, .i32⟩
  | .hbm, ⟨12, _⟩ => ⟨S400000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S200000, .f32⟩
  | .hbm, ⟨18, _⟩ => ⟨S600000x1, .i32⟩
  | .hbm, ⟨19, _⟩ => ⟨S200000, .f32⟩
  | .hbm, ⟨20, _⟩ => ⟨S200000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S600000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x1, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S200000x128, .f32⟩
  | .hbm, ⟨54, _⟩ => ⟨S600000x1, .i32⟩
  | .hbm, ⟨55, _⟩ => ⟨S200000x128, .f32⟩
  | .hbm, ⟨56, _⟩ => ⟨S1x128, .f32⟩
  | .hbm, ⟨57, _⟩ => ⟨S200000x128, .f32⟩
  | .hbm, ⟨58, _⟩ => ⟨S200000x128, .f32⟩
  | .hbm, ⟨59, _⟩ => ⟨S_, .f32⟩
  | .hbm, ⟨60, _⟩ => ⟨S200000x128, .f32⟩
  | .hbm, ⟨61, _⟩ => ⟨S200000x128, .f32⟩
  | .hbm, ⟨62, _⟩ => ⟨S200000x2, .f32⟩
  | .hbm, ⟨63, _⟩ => ⟨S200000, .i32⟩
  | .hbm, ⟨64, _⟩ => ⟨S1x400000, .i32⟩
  | .hbm, ⟨65, _⟩ => ⟨S400000, .i32⟩
  | .hbm, ⟨66, _⟩ => ⟨S600000, .i32⟩
  | .hbm, ⟨67, _⟩ => ⟨S1x400000, .i32⟩
  | .hbm, ⟨68, _⟩ => ⟨S400000, .i32⟩
  | .hbm, ⟨69, _⟩ => ⟨S600000, .i32⟩
  | .hbm, ⟨70, _⟩ => ⟨S_, .f32⟩
  | .hbm, ⟨71, _⟩ => ⟨S600000, .f32⟩
  | .hbm, ⟨72, _⟩ => ⟨S_, .f32⟩
  | .hbm, ⟨73, _⟩ => ⟨S200000, .f32⟩
  | .hbm, ⟨74, _⟩ => ⟨S600000x1, .i32⟩
  | .hbm, ⟨75, _⟩ => ⟨S200000, .f32⟩
  | .hbm, ⟨76, _⟩ => ⟨S200000, .f32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000, .f32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S600000, .f32⟩
  | .hbm, ⟨95, _⟩ => ⟨S600000, .f32⟩
  | .hbm, ⟨96, _⟩ => ⟨S_, .i32⟩
  | .hbm, ⟨97, _⟩ => ⟨S600000, .i32⟩
  | .hbm, ⟨98, _⟩ => ⟨S600000, .i1⟩
  | .hbm, ⟨99, _⟩ => ⟨S_, .i32⟩
  | .hbm, ⟨100, _⟩ => ⟨S600000, .i32⟩
  | .hbm, ⟨101, _⟩ => ⟨S600000, .i32⟩
  | .hbm, ⟨102, _⟩ => ⟨S600000, .i32⟩
  | .hbm, ⟨103, _⟩ => ⟨S600000x1, .i32⟩
  | .hbm, ⟨104, _⟩ => ⟨S600000x2, .f32⟩
  | .hbm, ⟨105, _⟩ => ⟨S600000x1, .f32⟩
  | .hbm, ⟨106, _⟩ => ⟨S600000x2, .f32⟩
  | .hbm, ⟨107, _⟩ => ⟨S600000x2, .f32⟩
  | .hbm, ⟨108, _⟩ => ⟨S_, .f32⟩
  | .hbm, ⟨109, _⟩ => ⟨S200000x2, .f32⟩
  | .hbm, ⟨110, _⟩ => ⟨S600000x1, .i32⟩
  | .hbm, ⟨111, _⟩ => ⟨S200000x2, .f32⟩
  | .hbm, ⟨112, _⟩ => ⟨S1x2, .f32⟩
  | .hbm, ⟨113, _⟩ => ⟨S200000x2, .f32⟩
  | .hbm, ⟨114, _⟩ => ⟨S200000x2, .f32⟩
  | _, _ => ⟨S200000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_10 : Ref sig .tc := ⟨.hbm, 77, rfl⟩
abbrev main_v59 : Ref sig .tc := ⟨.hbm, 78, rfl⟩
abbrev main_v60 : Ref sig .tc := ⟨.hbm, 79, rfl⟩
abbrev main_c_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_12 : Ref sig .tc := ⟨.hbm, 86, rfl⟩
abbrev main_v66 : Ref sig .tc := ⟨.hbm, 87, rfl⟩
abbrev main_v67 : Ref sig .tc := ⟨.hbm, 88, rfl⟩
abbrev main_c_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_14 : Ref sig .tc := ⟨.hbm, 96, rfl⟩
abbrev main_v74 : Ref sig .tc := ⟨.hbm, 97, rfl⟩
abbrev main_v75 : Ref sig .tc := ⟨.hbm, 98, rfl⟩
abbrev main_c_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S200000_S600000_d0 : Shape.Concatenates [S400000, S200000] S600000 0
  slices_S2x400000_S1x400000_1_0 : S2x400000.Slices ![1, 0] S1x400000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S600000x1_S600000x2_0_1 : S600000x1.BroadcastsInDim S600000x2 (![0, 1] : Fin 2 → Fin S600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  dot_S200000x165_S165x128_S200000x128_1_0_0_1_n_n_wf : DotDims.WF S200000x165 S165x128 S200000x128 [1] [0] [0] [1] [] []
  scatter_S200000_S600000x1_S600000_n_0_0_1_wf : ScatterDims.WF S200000 S600000x1 S600000 [] [0] [0] 1
  gather_S200000_S600000x1_S600000_n_0_n_n_0_1_1_wf : GatherDims.WF S200000 S600000x1 S600000 [] [0] [] [0] [] 1 ![1]
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x2_S200000x2_1_0_0_1_n_n_wf : DotDims.WF S200000x128 S128x2 S200000x2 [1] [0] [0] [1] [] []
  gather_S200000x2_S600000x1_S600000x2_1_0_n_n_0_1_12_wf : GatherDims.WF S200000x2 S600000x1 S600000x2 [1] [0] [] [0] [] 1 ![1, 2]
  scatter_S200000x2_S600000x1_S600000x2_1_0_0_1_wf : ScatterDims.WF S200000x2 S600000x1 S600000x2 [1] [0] [0] 1

variable [Facts₀]

def dot_S200000x165_S165x128_S200000x128_1_0_0_1_n_n : DotDims S200000x165 S165x128 S200000x128 where
  lhsContracting := [1]
  rhsContracting := [0]
  lhsNonContracting := [0]
  rhsNonContracting := [1]
  lhsBatch := []
  rhsBatch := []
  wf := dot_S200000x165_S165x128_S200000x128_1_0_0_1_n_n_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x2_S200000x2_1_0_0_1_n_n : DotDims S200000x128 S128x2 S200000x2 where
  lhsContracting := [1]
  rhsContracting := [0]
  lhsNonContracting := [0]
  rhsNonContracting := [1]
  lhsBatch := []
  rhsBatch := []
  wf := dot_S200000x128_S128x2_S200000x2_1_0_0_1_n_n_wf
def gather_S200000x2_S600000x1_S600000x2_1_0_n_n_0_1_12 : GatherDims S200000x2 S600000x1 S600000x2 where
  offsetDims := [1]
  collapsedSliceDims := [0]
  operandBatchingDims := []
  startIndicesBatchingDims := []
  startIndexMap := [0]
  indexVectorDim := 1
  sliceSizes := ![1, 2]
  wf := gather_S200000x2_S600000x1_S600000x2_1_0_n_n_0_1_12_wf
def scatter_S200000x2_S600000x1_S600000x2_1_0_0_1 : ScatterDims S200000x2 S600000x1 S600000x2 where
  updateWindowDims := [1]
  insertedWindowDims := [0]
  scatterDimsToOperandDims := [0]
  indexVectorDim := 1
  wf := scatter_S200000x2_S600000x1_S600000x2_1_0_0_1_wf

class Facts : Prop extends Facts₀ where

variable [Facts]
-- ==== Proof.RunValue.lean ====
/-
  The idealized kernel's run with its result buffer named.

  The program is five segments: host operations, the first tiled product, host operations, the second tiled
  product, host operations. The contents of every buffer at each boundary are a fold from the launch memory
  (a stretch of host operations applies them in order; a region leaves its output array at what its write-backs
  leave and every other buffer as entered). Every weakly fair execution terminates with every unscoped buffer at
  the last boundary's contents; this module keeps, of that, the result buffer and the six argument buffers.
-/
import proofs.«153436_j33363305955881_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the argument buffers as launched. -/
theorem run : θ_run defs (onTc (τ := τ) (main (F := F))) ⟨m, fun _ => 0, ρ⟩ (fun r => ∀ c : Dev nD,
      r.2.mem ((c.tc : Thread nD τ).loc main_v60) = W5 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v60 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.TileDot.lean ====
/-
  The two kernel bodies' arithmetic, read at an index over the extended reals.

  Each body multiplies a tile of 8000 rows by the whole weight matrix into a zero accumulator, after rounding
  both operands to a narrower float format. Over the extended reals a change of float format is the identity
  and a matrix product into zero is the textbook sum of products over the contracted axis. So entry (p, q) of
  the first body's result is  ∑ k < 165, x[p, k] · w[k, q],  and entry (p, q) of the second body's, which first
  takes the maximum of every entry of its tile with zero, is  ∑ k < 128, max(x[p, k], 0) · w[k, q].
-/
import proofs.«153436_j33363305955881_1_alg».proof.Proof.Gen.KernelIdeal
import proofs.«153436_j33363305955881_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.TcCoe Idealize.SL.Sem
open Idealize.ShloMosaic.ValueIdx

/-! ## Which operand entries a product term reads -/

/-- The left operand of the 165-deep product is read at the output's row -/
theorem lhs165_0 (i : S8000x128.Idx) (q : dot_S8000x165_S165x128_S8000x128_1_0_0_1_n_n.contr.Idx) :
    (dot_S8000x165_S165x128_S8000x128_1_0_0_1_n_n.lhsIdx i q 0).val = (i 0).val := by
  unfold DotDims.lhsIdx
  rw [dif_neg (show ¬(0 : Fin S8000x165.rank) ∈ dot_S8000x165_S165x128_S8000x128_1_0_0_1_n_n.lhsBatch by decide),
    dif_pos (show (0 : Fin S8000x165.rank) ∈ dot_S8000x165_S165x128_S8000x128_1_0_0_1_n_n.lhsNonContracting by decide)]
  rfl
/-- and the contracted column; -/
theorem lhs165_1 (i : S8000x128.Idx) (q : dot_S8000x165_S165x128_S8000x128_1_0_0_1_n_n.contr.Idx) :
    (dot_S8000x165_S165x128_S8000x128_1_0_0_1_n_n.lhsIdx i q 1).val = (q ⟨0, by decide⟩).val :=
  dot_S8000x165_S165x128_S8000x128_1_0_0_1_n_n.lhsIdx_val_of_single rfl i q
/-- the right operand at the contracted row -/
theorem rhs165_0 (i : S8000x128.Idx) (q : dot_S8000x165_S165x128_S8000x128_1_0_0_1_n_n.contr.Idx) :
    (dot_S8000x165_S165x128_S8000x128_1_0_0_1_n_n.rhsIdx i q 0).val = (q ⟨0, by decide⟩).val :=
  dot_S8000x165_S165x128_S8000x128_1_0_0_1_n_n.rhsIdx_val_of_single rfl i q
/-- and the output's column. -/
theorem rhs165_1 (i : S8000x128.Idx) (q : dot_S8000x165_S165x128_S8000x128_1_0_0_1_n_n.contr.Idx) :
    (dot_S8000x165_S165x128_S8000x128_1_0_0_1_n_n.rhsIdx i q 1).val = (i 1).val := by
  unfold DotDims.rhsIdx
  rw [dif_neg (show ¬(1 : Fin S165x128.rank) ∈ dot_S8000x165_S165x128_S8000x128_1_0_0_1_n_n.rhsBatch by decide),
    dif_pos (show (1 : Fin S165x128.rank) ∈ dot_S8000x165_S165x128_S8000x128_1_0_0_1_n_n.rhsNonContracting by decide)]
  rfl

/-- The same four facts for the 128-deep product of the second body. -/
theorem lhs128_0 (i : S8000x2.Idx) (q : dot_S8000x128_S128x2_S8000x2_1_0_0_1_n_n.contr.Idx) :
    (dot_S8000x128_S128x2_S8000x2_1_0_0_1_n_n.lhsIdx i q 0).val = (i 0).val := by
  unfold DotDims.lhsIdx
  rw [dif_neg (show ¬(0 : Fin S8000x128.rank) ∈ dot_S8000x128_S128x2_S8000x2_1_0_0_1_n_n.lhsBatch by decide),
    dif_pos (show (0 : Fin S8000x128.rank) ∈ dot_S8000x128_S128x2_S8000x2_1_0_0_1_n_n.lhsNonContracting by decide)]
  rfl
theorem lhs128_1 (i : S8000x2.Idx) (q : dot_S8000x128_S128x2_S8000x2_1_0_0_1_n_n.contr.Idx) :
    (dot_S8000x128_S128x2_S8000x2_1_0_0_1_n_n.lhsIdx i q 1).val = (q ⟨0, by decide⟩).val :=
  dot_S8000x128_S128x2_S8000x2_1_0_0_1_n_n.lhsIdx_val_of_single rfl i q
theorem rhs128_0 (i : S8000x2.Idx) (q : dot_S8000x128_S128x2_S8000x2_1_0_0_1_n_n.contr.Idx) :
    (dot_S8000x128_S128x2_S8000x2_1_0_0_1_n_n.rhsIdx i q 0).val = (q ⟨0, by decide⟩).val :=
  dot_S8000x128_S128x2_S8000x2_1_0_0_1_n_n.rhsIdx_val_of_single rfl i q
theorem rhs128_1 (i : S8000x2.Idx) (q : dot_S8000x128_S128x2_S8000x2_1_0_0_1_n_n.contr.Idx) :
    (dot_S8000x128_S128x2_S8000x2_1_0_0_1_n_n.rhsIdx i q 1).val = (i 1).val := by
  unfold DotDims.rhsIdx
  rw [dif_neg (show ¬(1 : Fin S128x2.rank) ∈ dot_S8000x128_S128x2_S8000x2_1_0_0_1_n_n.rhsBatch by decide),
    dif_pos (show (1 : Fin S128x2.rank) ∈ dot_S8000x128_S128x2_S8000x2_1_0_0_1_n_n.rhsNonContracting by decide)]
  rfl

/-! ## The two bodies at an entry -/

/-- Entry (p, q) of the first body's result: row p of the tile against column q of the weights. -/
theorem rowsTimesWeights (x : Vec Ideal S8000x165 .f32) (w : Vec Ideal S165x128 .f32) (p : Fin 8000) (q : Fin 128) :
    k0_pay1 (F := Ideal) x w (ix2 p q) = ∑ k : Fin 165, x (ix2 p k) * w (ix2 k q) := by
  unfold k0_pay1
  refine (Ideal.matmul_constant_zero_apply dot_S8000x165_S165x128_S8000x128_1_0_0_1_n_n none _ _ (ix2 p q)).trans ?_
  rw [← Equiv.sum_comp (contrEquiv1 dot_S8000x165_S165x128_S8000x128_1_0_0_1_n_n 165 rfl rfl).symm]
  refine Finset.sum_congr rfl fun k _ => ?_
  have hk := contrEquiv1_symm_val dot_S8000x165_S165x128_S8000x128_1_0_0_1_n_n 165 rfl rfl k
  have el : dot_S8000x165_S165x128_S8000x128_1_0_0_1_n_n.lhsIdx (ix2 p q)
      ((contrEquiv1 dot_S8000x165_S165x128_S8000x128_1_0_0_1_n_n 165 rfl rfl).symm k) = ix2 p k := funext fun a => Fin.ext (by
    match a with
    | ⟨0, _⟩ => exact lhs165_0 _ _
    | ⟨1, _⟩ => exact (lhs165_1 _ _).trans hk)
  have er : dot_S8000x165_S165x128_S8000x128_1_0_0_1_n_n.rhsIdx (ix2 p q)
      ((contrEquiv1 dot_S8000x165_S165x128_S8000x128_1_0_0_1_n_n 165 rfl rfl).symm k) = ix2 k q := funext fun a => Fin.ext (by
    match a with
    | ⟨0, _⟩ => exact (rhs165_0 _ _).trans hk
    | ⟨1, _⟩ => exact rhs165_1 _ _)
  rw [truncf_apply, truncf_apply, el, er]

/-- Entry (p, q) of the second body's result: row p of the tile, every entry first raised to at least zero,
    against column q of the weights. -/
theorem reluRowsTimesWeights (x : Vec Ideal S8000x128 .f32) (w : Vec Ideal S128x2 .f32) (p : Fin 8000) (q : Fin 2) :
    k1_pay1 (F := Ideal) x w (ix2 p q)
      = ∑ k : Fin 128, max (x (ix2 p k)) (Ideal.ofBits .f32 0x00000000#32) * w (ix2 k q) := by
  unfold k1_pay1
  refine (Ideal.matmul_constant_zero_apply dot_S8000x128_S128x2_S8000x2_1_0_0_1_n_n none _ _ (ix2 p q)).trans ?_
  rw [← Equiv.sum_comp (contrEquiv1 dot_S8000x128_S128x2_S8000x2_1_0_0_1_n_n 128 rfl rfl).symm]
  refine Finset.sum_congr rfl fun k _ => ?_
  have hk := contrEquiv1_symm_val dot_S8000x128_S128x2_S8000x2_1_0_0_1_n_n 128 rfl rfl k
  have el : dot_S8000x128_S128x2_S8000x2_1_0_0_1_n_n.lhsIdx (ix2 p q)
      ((contrEquiv1 dot_S8000x128_S128x2_S8000x2_1_0_0_1_n_n 128 rfl rfl).symm k) = ix2 p k := funext fun a => Fin.ext (by
    match a with
    | ⟨0, _⟩ => exact lhs128_0 _ _
    | ⟨1, _⟩ => exact (lhs128_1 _ _).trans hk)
  have er : dot_S8000x128_S128x2_S8000x2_1_0_0_1_n_n.rhsIdx (ix2 p q)
      ((contrEquiv1 dot_S8000x128_S128x2_S8000x2_1_0_0_1_n_n 128 rfl rfl).symm k) = ix2 k q := funext fun a => Fin.ext (by
    match a with
    | ⟨0, _⟩ => exact (rhs128_0 _ _).trans hk
    | ⟨1, _⟩ => exact rhs128_1 _ _)
  rw [truncf_apply, truncf_apply, el, er, maximumf_apply, shapeCast_self]
  rfl

/-! ## The same at an arbitrary entry -/

/-- Entry y of the first body's result reads row y₀ of the tile and column y₁ of the weights. -/
theorem rowsTimesWeights_at (x : Vec Ideal S8000x165 .f32) (w : Vec Ideal S165x128 .f32) (y : S8000x128.Idx) :
    k0_pay1 (F := Ideal) x w y = ∑ k : Fin 165, x (ix2 (y 0) k) * w (ix2 k (y 1)) :=
  (congrArg (k0_pay1 (F := Ideal) x w) (eq_ix2 y)).trans (rowsTimesWeights x w (y 0) (y 1))

/-- Entry y of the second body's result reads row y₀ of the tile, raised to at least zero, and column y₁ of the weights. -/
theorem reluRowsTimesWeights_at (x : Vec Ideal S8000x128 .f32) (w : Vec Ideal S128x2 .f32) (y : S8000x2.Idx) :
    k1_pay1 (F := Ideal) x w y
      = ∑ k : Fin 128, max (x (ix2 (y 0) k)) (Ideal.ofBits .f32 0x00000000#32) * w (ix2 k (y 1)) :=
  (congrArg (k1_pay1 (F := Ideal) x w) (eq_ix2 y)).trans (reluRowsTimesWeights x w (y 0) (y 1))

end Cert.KernelIdeal.Tile

end
-- ==== Proof.RegionArrays.lean ====
/-
  What each of the two tiled matrix products leaves in its output array, as one whole-array function.

  A region walks 25 grid points; point t reads rows 8000·t … 8000·t + 7999 of its left operand and the whole of
  its right operand, and writes the same rows of its output. The 25 row blocks tile the 200000 rows, so after
  the region every entry (r, q) of the output holds  ∑ k, a[r, k] · w[k, q]  (the first region) or
  ∑ k, max(a[r, k], 0) · w[k, q]  (the second): the sum a single product of the whole arrays has at that entry.
  Both are stated for arbitrary contents of the buffers at the region's entry, because the second region is
  entered from contents the first region and the operations between them produced.
-/
import proofs.«153436_j33363305955881_1_alg».proof.Proof.Gen.KernelIdeal.Frame
import proofs.«153436_j33363305955881_1_alg».proof.Proof.Gen.ReferenceIdeal.Read
import proofs.«153436_j33363305955881_1_alg».proof.Proof.TileDot
import Idealize.ShloMosaic.Lib.ValueIdx
import Idealize.ShloMosaic.Lib.Pipeline.Value
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-! ## The host's whole products at an entry -/

/-- A whole 200000 × 128 by 128 × 2 product at entry i is the sum over the 128 contracted positions. -/
theorem wholeProduct128_apply (y : FVec Ideal Cert.ReferenceIdeal.S200000x128 .f32) (w : FVec Ideal Cert.ReferenceIdeal.S128x2 .f32)
    (i : Cert.ReferenceIdeal.S200000x2.Idx) :
    Host.dotGeneral (F := Ideal) Cert.ReferenceIdeal.dot_S200000x128_S128x2_S200000x2_1_0_0_1_n_n none y w i
      = ∑ k : Fin 128, y (Cert.ReferenceIdeal.Read.lidx_main_v46 i k) * w (Cert.ReferenceIdeal.Read.ridx_main_v46 i k) := by
  simp only [Host.dotGeneral]
  rw [Ideal.dotGeneral_apply, ← Equiv.sum_comp (contrEquiv1 Cert.ReferenceIdeal.dot_S200000x128_S128x2_S200000x2_1_0_0_1_n_n 128 rfl rfl).symm]
  refine Finset.sum_congr rfl fun k _ => ?_
  have hk := contrEquiv1_symm_val Cert.ReferenceIdeal.dot_S200000x128_S128x2_S200000x2_1_0_0_1_n_n 128 rfl rfl k
  have el : Cert.ReferenceIdeal.dot_S200000x128_S128x2_S200000x2_1_0_0_1_n_n.lhsIdx i
      ((contrEquiv1 Cert.ReferenceIdeal.dot_S200000x128_S128x2_S200000x2_1_0_0_1_n_n 128 rfl rfl).symm k)
        = Cert.ReferenceIdeal.Read.lidx_main_v46 i k := funext fun a => Fin.ext (by
    match a with
    | ⟨0, _⟩ => exact Cert.ReferenceIdeal.Read.lhs_main_v46_0 _ _
    | ⟨1, _⟩ => exact (Cert.ReferenceIdeal.Read.lhs_main_v46_1 _ _).trans hk)
  have er : Cert.ReferenceIdeal.dot_S200000x128_S128x2_S200000x2_1_0_0_1_n_n.rhsIdx i
      ((contrEquiv1 Cert.ReferenceIdeal.dot_S200000x128_S128x2_S200000x2_1_0_0_1_n_n 128 rfl rfl).symm k)
        = Cert.ReferenceIdeal.Read.ridx_main_v46 i k := funext fun a => Fin.ext (by
    match a with
    | ⟨0, _⟩ => exact (Cert.ReferenceIdeal.Read.rhs_main_v46_0 _ _).trans hk
    | ⟨1, _⟩ => exact Cert.ReferenceIdeal.Read.rhs_main_v46_1 _ _)
  rw [el, er]

/-- The array of zeros the host compares with is zero at every entry. -/
theorem zeros128_apply (i : Cert.ReferenceIdeal.S200000x128.Idx) :
    Cert.ReferenceIdeal.Read.val_main_v44 (F := Ideal) i = Ideal.ofBits .f32 0x00000000#32 :=
  (Cert.ReferenceIdeal.Read.val_main_v44_apply (F := Ideal) i).trans (Cert.ReferenceIdeal.Read.val_main_cst_7_apply (F := Ideal) _)

/-! ## The first region: rows of the features times the first weights -/

/-- The whole product of the first region's operands as it finds them. -/
abbrev product0 (c : Dev nD) : Cert.ReferenceIdeal.S200000x128.Idx → EReal :=
  Cert.ReferenceIdeal.Read.val_main_v0 (F := Ideal) (V c main_arg0) (V c main_arg2)

/-- Over the 25 grid points: the left operand and the output move by one row block per point, the right operand
    stays, and none is offset along its second axis. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0 (c : Dev nD) (t : Fin cfg0.N) :
    (dat0 V c).flushed 2 t = ((cfg0.win 2).blk t).view.read (Elt Ideal) (product0 V c) := by
  show (cfg0.win 2).cut (grid0.coords t) ((dat0 V c).after 2 t) = _
  rw [after0_2]
  unfold out0_2
  rw [View.canon_unit_zero origin2]
  simp only [View.ld_unit_zero (S := S8000x165) origin2, View.ld_unit_zero (S := S165x128) origin2]
  obtain ⟨e0, e1, e2, e3, e4, e5⟩ := blockIndex0 t
  funext j
  refine (Tile.rowsTimesWeights_at (iblk0 V c 0 t) (iblk0 V c 1 t) ((win0 2).xinj (grid0.coords t) j)).trans ?_
  refine Eq.trans ?_ (Cert.ReferenceIdeal.Read.val_main_v0_apply (V c main_arg0) (V c main_arg2) (((cfg0.win 2).blk t).view.emb j)).symm
  refine Finset.sum_congr rfl fun k _ => ?_
  refine congrArg₂ (· * ·) ?_ ?_
  · show V c main_arg0 (((cfg0.win 0).blk t).view.emb (ix2 ((win0 2).xinj (grid0.coords t) j 0) k))
      = V c main_arg0 (Cert.ReferenceIdeal.Read.lidx_main_v0 (((cfg0.win 2).blk t).view.emb j) k)
    refine congrArg (V c main_arg0) ?_
    funext a; apply Fin.ext
    match a with
    | ⟨0, _⟩ =>
      show win0_0.index t (0 : Fin 2) * 8000 + 1 * (j 0).val = win0_2.index t (0 : Fin 2) * 8000 + 1 * (j 0).val
      omega
    | ⟨1, _⟩ =>
      show win0_0.index t (1 : Fin 2) * 165 + 1 * k.val = k.val
      omega
  · show V c main_arg2 (((cfg0.win 1).blk t).view.emb (ix2 k ((win0 2).xinj (grid0.coords t) j 1)))
      = V c main_arg2 (Cert.ReferenceIdeal.Read.ridx_main_v0 (((cfg0.win 2).blk t).view.emb j) k)
    refine congrArg (V c main_arg2) ?_
    funext a; apply Fin.ext
    match a with
    | ⟨0, _⟩ =>
      show win0_1.index t (0 : Fin 2) * 165 + 1 * k.val = k.val
      omega
    | ⟨1, _⟩ =>
      show win0_1.index t (1 : Fin 2) * 128 + 1 * (j 1).val = win0_2.index t (1 : Fin 2) * 128 + 1 * (j 1).val
      omega

/-- An entry of the output array is in point t's block iff each coordinate is in the block's range. -/
theorem mem_block0 (t : Fin cfg0.N) (i : S200000x128.Idx) :
    i ∈ ((cfg0.win 2).blk t).view.set ↔ ∀ a : Fin 2, win0_2.index t a * S8000x128.size a ≤ (i a).val
      ∧ (i a).val < win0_2.index t a * S8000x128.size a + S8000x128.size a := by
  show i ∈ ((View.whole main_v27).slice (win0_2.rect t)).set ↔ _
  rw [View.set_slice_whole, Rect.mem_set_unit]
  exact Iff.rfl

/-- Row r lies in the block of point r / 8000. -/
theorem covered0 (i : S200000x128.Idx) :
    ∃ t : Fin cfg0.N, (cfg0.win 2).flush t = true ∧ i ∈ ((cfg0.win 2).blk t).view.set := by
  have hi0 : (i 0).val < 200000 := (i 0).isLt
  have hi1 : (i 1).val < 128 := (i 1).isLt
  have hN : cfg0.N = 25 := N_0
  have ht : (i 0).val / 8000 < cfg0.N := by rw [hN]; omega
  obtain ⟨e0, e1, e2, e3, e4, e5⟩ := blockIndex0 ⟨(i 0).val / 8000, ht⟩
  refine ⟨⟨(i 0).val / 8000, ht⟩, flush0_2 _, ?_⟩
  rw [mem_block0]
  intro a
  match a with
  | ⟨0, _⟩ =>
    show win0_2.index ⟨(i 0).val / 8000, ht⟩ (0 : Fin 2) * 8000 ≤ (i 0).val
      ∧ (i 0).val < win0_2.index ⟨(i 0).val / 8000, ht⟩ (0 : Fin 2) * 8000 + 8000
    have e4' : win0_2.index ⟨(i 0).val / 8000, ht⟩ (0 : Fin 2) = (i 0).val / 8000 := e4
    omega
  | ⟨1, _⟩ =>
    show win0_2.index ⟨(i 0).val / 8000, ht⟩ (1 : Fin 2) * 128 ≤ (i 1).val
      ∧ (i 1).val < win0_2.index ⟨(i 0).val / 8000, ht⟩ (1 : Fin 2) * 128 + 128
    omega

/-- After the first region its output array is the whole product of its operands. -/
theorem array0 (c : Dev nD) : (dat0 V c).arrAt 2 cfg0.N = product0 V c :=
  (dat0 V c).arrAt_eq_of_cover 2 (product0 V c) (fun t _ => flushed0 V c t) (fun i => covered0 i)

/-! ## The second region: rows raised to at least zero, times the second weights -/

/-- The whole product of the second region's operands as it finds them, the left one first compared with zero. -/
abbrev product1 (c : Dev nD) : Cert.ReferenceIdeal.S200000x2.Idx → EReal :=
  Host.dotGeneral (F := Ideal) (φ₁ := .f32) (φ₂ := .f32) Cert.ReferenceIdeal.dot_S200000x128_S128x2_S200000x2_1_0_0_1_n_n none
    (maximumf (F := Ideal) (s := Cert.ReferenceIdeal.S200000x128) (φ := .f32) (V c main_v43) (Cert.ReferenceIdeal.Read.val_main_v44 (F := Ideal)))
    (V c main_arg4)

theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product. -/
theorem flushed1 (c : Dev nD) (t : Fin cfg1.N) :
    (dat1 V c).flushed 2 t = ((cfg1.win 2).blk t).view.read (Elt Ideal) (product1 V c) := by
  show (cfg1.win 2).cut (grid1.coords t) ((dat1 V c).after 2 t) = _
  rw [after1_2]
  unfold out1_2
  rw [View.canon_unit_zero origin2]
  simp only [View.ld_unit_zero (S := S8000x128) origin2, View.ld_unit_zero (S := S128x2) origin2]
  obtain ⟨e0, e1, e2, e3, e4, e5⟩ := blockIndex1 t
  funext j
  refine (Tile.reluRowsTimesWeights_at (iblk1 V c 0 t) (iblk1 V c 1 t) ((win1 2).xinj (grid1.coords t) j)).trans ?_
  refine Eq.trans ?_ (wholeProduct128_apply
    (maximumf (F := Ideal) (s := Cert.ReferenceIdeal.S200000x128) (φ := .f32) (V c main_v43) (Cert.ReferenceIdeal.Read.val_main_v44 (F := Ideal)))
    (V c main_arg4) (((cfg1.win 2).blk t).view.emb j)).symm
  refine Finset.sum_congr rfl fun k _ => ?_
  refine congrArg₂ (· * ·) ?_ ?_
  · show @max EReal _ (V c main_v43 (((cfg1.win 0).blk t).view.emb (ix2 ((win1 2).xinj (grid1.coords t) j 0) k)))
        (Ideal.ofBits .f32 0x00000000#32)
      = @max EReal _ (V c main_v43 (Cert.ReferenceIdeal.Read.lidx_main_v46 (((cfg1.win 2).blk t).view.emb j) k))
          (Cert.ReferenceIdeal.Read.val_main_v44 (F := Ideal) (Cert.ReferenceIdeal.Read.lidx_main_v46 (((cfg1.win 2).blk t).view.emb j) k))
    refine congrArg₂ (@max EReal _) (congrArg (V c main_v43) ?_) (zeros128_apply _).symm
    funext a; apply Fin.ext
    match a with
    | ⟨0, _⟩ =>
      show win1_0.index t (0 : Fin 2) * 8000 + 1 * (j 0).val = win1_2.index t (0 : Fin 2) * 8000 + 1 * (j 0).val
      omega
    | ⟨1, _⟩ =>
      show win1_0.index t (1 : Fin 2) * 128 + 1 * k.val = k.val
      omega
  · show V c main_arg4 (((cfg1.win 1).blk t).view.emb (ix2 k ((win1 2).xinj (grid1.coords t) j 1)))
      = V c main_arg4 (Cert.ReferenceIdeal.Read.ridx_main_v46 (((cfg1.win 2).blk t).view.emb j) k)
    refine congrArg (V c main_arg4) ?_
    funext a; apply Fin.ext
    match a with
    | ⟨0, _⟩ =>
      show win1_1.index t (0 : Fin 2) * 128 + 1 * k.val = k.val
      omega
    | ⟨1, _⟩ =>
      show win1_1.index t (1 : Fin 2) * 2 + 1 * (j 1).val = win1_2.index t (1 : Fin 2) * 2 + 1 * (j 1).val
      omega

theorem mem_block1 (t : Fin cfg1.N) (i : S200000x2.Idx) :
    i ∈ ((cfg1.win 2).blk t).view.set ↔ ∀ a : Fin 2, win1_2.index t a * S8000x2.size a ≤ (i a).val
      ∧ (i a).val < win1_2.index t a * S8000x2.size a + S8000x2.size a := by
  show i ∈ ((View.whole main_v44).slice (win1_2.rect t)).set ↔ _
  rw [View.set_slice_whole, Rect.mem_set_unit]
  exact Iff.rfl

/-- Row r lies in the block of point r / 8000. -/
theorem covered1 (i : S200000x2.Idx) :
    ∃ t : Fin cfg1.N, (cfg1.win 2).flush t = true ∧ i ∈ ((cfg1.win 2).blk t).view.set := by
  have hi0 : (i 0).val < 200000 := (i 0).isLt
  have hi1 : (i 1).val < 2 := (i 1).isLt
  have hN : cfg1.N = 25 := N_1
  have ht : (i 0).val / 8000 < cfg1.N := by rw [hN]; omega
  obtain ⟨e0, e1, e2, e3, e4, e5⟩ := blockIndex1 ⟨(i 0).val / 8000, ht⟩
  refine ⟨⟨(i 0).val / 8000, ht⟩, flush1_2 _, ?_⟩
  rw [mem_block1]
  intro a
  match a with
  | ⟨0, _⟩ =>
    show win1_2.index ⟨(i 0).val / 8000, ht⟩ (0 : Fin 2) * 8000 ≤ (i 0).val
      ∧ (i 0).val < win1_2.index ⟨(i 0).val / 8000, ht⟩ (0 : Fin 2) * 8000 + 8000
    have e4' : win1_2.index ⟨(i 0).val / 8000, ht⟩ (0 : Fin 2) = (i 0).val / 8000 := e4
    omega
  | ⟨1, _⟩ =>
    show win1_2.index ⟨(i 0).val / 8000, ht⟩ (1 : Fin 2) * 2 ≤ (i 1).val
      ∧ (i 1).val < win1_2.index ⟨(i 0).val / 8000, ht⟩ (1 : Fin 2) * 2 + 2
    omega

/-- After the second region its output array is the whole product of its operands. -/
theorem array1 (c : Dev nD) : (dat1 V c).arrAt 2 cfg1.N = product1 V c :=
  (dat1 V c).arrAt_eq_of_cover 2 (product1 V c) (fun t _ => flushed1 V c t) (fun i => covered1 i)

end Cert.KernelIdeal.Whole

end
-- ==== Proof.HostRead.lean ====
/-
  The buffers at the five boundaries of the idealized kernel, read back to functions of the argument arrays.

  Both programs build, from the edge list alone, the same three arrays: the source node of every edge followed
  by every node (a self-loop per node), the destination likewise, and per edge the product of the inverse
  square roots of its two endpoints' in-degrees. One layer is then: a matrix product of the node features with
  the weights, each edge gathering its source row scaled by its coefficient, the rows added up per destination
  node, and the bias added to every row. The kernel computes the three arrays once, before its first tiled
  product, and they are untouched afterwards; the reference computes them once per layer, by the same
  operations. With each tiled product equal to the whole one (the regions' arrays), every buffer the kernel
  holds is therefore the reference's own stage of the same name: the aggregated first layer, the second
  product, and the result.
-/
import proofs.«153436_j33363305955881_1_alg».proof.Proof.Gen.KernelIdeal.Frame
import proofs.«153436_j33363305955881_1_alg».proof.Proof.Gen.ReferenceIdeal.Read
import proofs.«153436_j33363305955881_1_alg».proof.Proof.RegionArrays
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Before the first product: the arguments as launched, and the three arrays of the graph -/

theorem entry0_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem entry0_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem entry0_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem entry0_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem entry0_arg5 (c : Dev nD) : W1 m ρ c (Proc.devRef .tc main_arg5) = m ((c : Thread nD τ).loc main_arg5) := by
  show StableHlo.after hostOps0 (W0 m ρ c) (Proc.devRef .tc main_arg5) = _
  after_results_simp <;> rfl

/-- The source of every edge, then every node. -/
theorem entry0_sources (c : Dev nD) :
    W1 m ρ c (Proc.devRef .tc main_v3) = Cert.ReferenceIdeal.Read.val_main_v4 (F := Ideal) (m ((c : Thread nD τ).loc main_arg1)) := by
  show StableHlo.after hostOps0 (W0 m ρ c) (Proc.devRef .tc main_v3) = _
  after_results_simp <;> rfl
/-- The destination of every edge, then every node. -/
theorem entry0_targets (c : Dev nD) :
    W1 m ρ c (Proc.devRef .tc main_v6) = Cert.ReferenceIdeal.Read.val_main_v7 (F := Ideal) (m ((c : Thread nD τ).loc main_arg1)) := by
  show StableHlo.after hostOps0 (W0 m ρ c) (Proc.devRef .tc main_v6) = _
  after_results_simp <;> rfl
/-- Per edge, the product of the inverse square roots of its endpoints' in-degrees. -/
theorem entry0_coefficients (c : Dev nD) :
    W1 m ρ c (Proc.devRef .tc main_v26) = Cert.ReferenceIdeal.Read.val_main_v27 (F := Ideal) (m ((c : Thread nD τ).loc main_arg1)) := by
  show StableHlo.after hostOps0 (W0 m ρ c) (Proc.devRef .tc main_v26) = _
  after_results_simp <;> rfl

/-! ## Across the first product -/

/-- The first product's output array is the whole product of the features with the first weights. -/
theorem exit0_product (c : Dev nD) :
    W2 m ρ c (Proc.devRef .tc main_v27) = Cert.ReferenceIdeal.Read.val_main_v0 (F := Ideal) (m ((c : Thread nD τ).loc main_arg0)) (m ((c : Thread nD τ).loc main_arg2)) := by
  refine (W2_arr m ρ c 2).trans ((Whole.array0 (V1 m ρ) c).trans ?_)
  show Cert.ReferenceIdeal.Read.val_main_v0 (F := Ideal) (W1 m ρ c (Proc.devRef .tc main_arg0)) (W1 m ρ c (Proc.devRef .tc main_arg2)) = _
  rw [entry0_arg0, entry0_arg2]

/-- The first region writes nothing else: the graph's three arrays and the later arguments are as before it. -/
theorem exit0_sources (c : Dev nD) : W2 m ρ c (Proc.devRef .tc main_v3) = Cert.ReferenceIdeal.Read.val_main_v4 (F := Ideal) (m ((c : Thread nD τ).loc main_arg1)) :=
  (W2_of_ne m ρ c main_v3 (by decide)).trans (entry0_sources m ρ c)
theorem exit0_targets (c : Dev nD) : W2 m ρ c (Proc.devRef .tc main_v6) = Cert.ReferenceIdeal.Read.val_main_v7 (F := Ideal) (m ((c : Thread nD τ).loc main_arg1)) :=
  (W2_of_ne m ρ c main_v6 (by decide)).trans (entry0_targets m ρ c)
theorem exit0_coefficients (c : Dev nD) : W2 m ρ c (Proc.devRef .tc main_v26) = Cert.ReferenceIdeal.Read.val_main_v27 (F := Ideal) (m ((c : Thread nD τ).loc main_arg1)) :=
  (W2_of_ne m ρ c main_v26 (by decide)).trans (entry0_coefficients m ρ c)
theorem exit0_arg3 (c : Dev nD) : W2 m ρ c (Proc.devRef .tc main_arg3) = m ((c : Thread nD τ).loc main_arg3) :=
  (W2_of_ne m ρ c main_arg3 (by decide)).trans (entry0_arg3 m ρ c)
theorem exit0_arg4 (c : Dev nD) : W2 m ρ c (Proc.devRef .tc main_arg4) = m ((c : Thread nD τ).loc main_arg4) :=
  (W2_of_ne m ρ c main_arg4 (by decide)).trans (entry0_arg4 m ρ c)
theorem exit0_arg5 (c : Dev nD) : W2 m ρ c (Proc.devRef .tc main_arg5) = m ((c : Thread nD τ).loc main_arg5) :=
  (W2_of_ne m ρ c main_arg5 (by decide)).trans (entry0_arg5 m ρ c)

/-! ## Between the products: the first layer aggregated -/

/-- Every edge gathers its source's row of the first product, scaled; the rows are added up per destination;
    the first bias is added: the reference's first layer before its comparison with zero. -/
theorem entry1_layer (c : Dev nD) :
    W3 m ρ c (Proc.devRef .tc main_v43)
      = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v43) = _
  after_results_simp
  rw [exit0_product, exit0_sources, exit0_targets, exit0_coefficients, exit0_arg3]
  rfl

theorem entry1_sources (c : Dev nD) : W3 m ρ c (Proc.devRef .tc main_v3) = Cert.ReferenceIdeal.Read.val_main_v4 (F := Ideal) (m ((c : Thread nD τ).loc main_arg1)) := by
  refine Eq.trans ?_ (exit0_sources m ρ c)
  show StableHlo.after hostOps1 (W2 m ρ c) (Proc.devRef .tc main_v3) = _
  after_results_simp <;> rfl
theorem entry1_targets (c : Dev nD) : W3 m ρ c (Proc.devRef .tc main_v6) = Cert.ReferenceIdeal.Read.val_main_v7 (F := Ideal) (m ((c : Thread nD τ).loc main_arg1)) := by
  refine Eq.trans ?_ (exit0_targets m ρ c)
  show StableHlo.after hostOps1 (W2 m ρ c) (Proc.devRef .tc main_v6) = _
  after_results_simp <;> rfl
theorem entry1_coefficients (c : Dev nD) : W3 m ρ c (Proc.devRef .tc main_v26) = Cert.ReferenceIdeal.Read.val_main_v27 (F := Ideal) (m ((c : Thread nD τ).loc main_arg1)) := by
  refine Eq.trans ?_ (exit0_coefficients m ρ c)
  show StableHlo.after hostOps1 (W2 m ρ c) (Proc.devRef .tc main_v26) = _
  after_results_simp <;> rfl
theorem entry1_arg4 (c : Dev nD) : W3 m ρ c (Proc.devRef .tc main_arg4) = m ((c : Thread nD τ).loc main_arg4) := by
  refine Eq.trans ?_ (exit0_arg4 m ρ c)
  show StableHlo.after hostOps1 (W2 m ρ c) (Proc.devRef .tc main_arg4) = _
  after_results_simp <;> rfl
theorem entry1_arg5 (c : Dev nD) : W3 m ρ c (Proc.devRef .tc main_arg5) = m ((c : Thread nD τ).loc main_arg5) := by
  refine Eq.trans ?_ (exit0_arg5 m ρ c)
  show StableHlo.after hostOps1 (W2 m ρ c) (Proc.devRef .tc main_arg5) = _
  after_results_simp <;> rfl

/-! ## Across the second product -/

/-- The second product's output array is the whole product of the first layer, compared with zero, with the
    second weights. -/
theorem exit1_product (c : Dev nD) :
    W4 m ρ c (Proc.devRef .tc main_v44)
      = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 2).trans ((Whole.array1 (V3 m ρ) c).trans ?_)
  show Host.dotGeneral (F := Ideal) (φ₁ := .f32) (φ₂ := .f32) Cert.ReferenceIdeal.dot_S200000x128_S128x2_S200000x2_1_0_0_1_n_n none
      (maximumf (F := Ideal) (s := Cert.ReferenceIdeal.S200000x128) (φ := .f32) (W3 m ρ c (Proc.devRef .tc main_v43)) (Cert.ReferenceIdeal.Read.val_main_v44 (F := Ideal)))
      (W3 m ρ c (Proc.devRef .tc main_arg4)) = _
  rw [entry1_layer, entry1_arg4]
  rfl

theorem exit1_sources (c : Dev nD) : W4 m ρ c (Proc.devRef .tc main_v3) = Cert.ReferenceIdeal.Read.val_main_v4 (F := Ideal) (m ((c : Thread nD τ).loc main_arg1)) :=
  (W4_of_ne m ρ c main_v3 (by decide)).trans (entry1_sources m ρ c)
theorem exit1_targets (c : Dev nD) : W4 m ρ c (Proc.devRef .tc main_v6) = Cert.ReferenceIdeal.Read.val_main_v7 (F := Ideal) (m ((c : Thread nD τ).loc main_arg1)) :=
  (W4_of_ne m ρ c main_v6 (by decide)).trans (entry1_targets m ρ c)
theorem exit1_coefficients (c : Dev nD) : W4 m ρ c (Proc.devRef .tc main_v26) = Cert.ReferenceIdeal.Read.val_main_v27 (F := Ideal) (m ((c : Thread nD τ).loc main_arg1)) :=
  (W4_of_ne m ρ c main_v26 (by decide)).trans (entry1_coefficients m ρ c)
theorem exit1_arg5 (c : Dev nD) : W4 m ρ c (Proc.devRef .tc main_arg5) = m ((c : Thread nD τ).loc main_arg5) :=
  (W4_of_ne m ρ c main_arg5 (by decide)).trans (entry1_arg5 m ρ c)

/-! ## After the second product: the result -/

/-- The second layer aggregated the same way, with the second bias: the reference's result, stage by stage. -/
theorem result (c : Dev nD) :
    W5 m ρ c (Proc.devRef .tc main_v60)
      = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v60) = _
  after_results_simp
  rw [exit1_product, exit1_sources, exit1_targets, exit1_coefficients, exit1_arg5]
  rfl

end Cert.KernelIdeal.HostRead

end
-- ==== Proof.lean ====
/-
  A two-layer graph convolution on 200000 nodes and 400000 edges: the kernel against its reference, over the
  extended reals.

  A layer multiplies the node features by a weight matrix, lets every edge (and a self-loop per node) carry its
  source node's row to its destination scaled by  1 / sqrt(deg(source) · deg(destination)),  adds the rows up per
  destination, and adds a bias; between the two layers every entry is compared with zero. The reference does all
  of it with whole-array operations. The kernel does the two matrix products in 25 row blocks of 8000 rows each,
  rounding its operands to a narrower float format first and folding the comparison with zero into the second
  product's load; everything about the graph it computes by the same whole-array operations as the reference,
  once instead of once per layer.

  Over the extended reals a change of float format is the identity, and a matrix product — in blocks into a zero
  accumulator, or whole — is at every entry the same finite sum of products. So each tiled product leaves the
  whole product in its output array (Proof/RegionArrays.lean, over Proof/TileDot.lean), every buffer of the
  kernel's run is the reference's stage of the same meaning (Proof/HostRead.lean, over the run with its result
  named, Proof/RunValue.lean), and the two results are one function of the arguments. Nothing here needs the
  inputs to be finite: no step distributes, cancels, or moves a factor across a sum.
-/
import proofs.«153436_j33363305955881_1_alg».proof.Defs
import proofs.«153436_j33363305955881_1_alg».proof.Proof.Gen.Kernel
import proofs.«153436_j33363305955881_1_alg».proof.Proof.Gen.Kernel.Skeleton
import proofs.«153436_j33363305955881_1_alg».proof.Proof.Gen.Kernel.Launch
import proofs.«153436_j33363305955881_1_alg».proof.Proof.Gen.Kernel.Points
import proofs.«153436_j33363305955881_1_alg».proof.Proof.Gen.Kernel.Frame
import proofs.«153436_j33363305955881_1_alg».proof.Proof.Gen.KernelIdeal
import proofs.«153436_j33363305955881_1_alg».proof.Proof.Gen.KernelIdeal.Skeleton
import proofs.«153436_j33363305955881_1_alg».proof.Proof.Gen.KernelIdeal.Launch
import proofs.«153436_j33363305955881_1_alg».proof.Proof.Gen.KernelIdeal.Points
import proofs.«153436_j33363305955881_1_alg».proof.Proof.Gen.KernelIdeal.Frame
import proofs.«153436_j33363305955881_1_alg».proof.Proof.Gen.ReferenceIdeal
import proofs.«153436_j33363305955881_1_alg».proof.Proof.Gen.Pre_finite_inputs
import proofs.«153436_j33363305955881_1_alg».proof.Proof.Gen.ReferenceIdeal.Read
import proofs.«153436_j33363305955881_1_alg».proof.Proof.RunValue
import proofs.«153436_j33363305955881_1_alg».proof.Proof.HostRead
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- From memories that agree on the six arguments both programs end, the kernel's result buffer and the
    reference's holding the same array: the reference's last stage of the arguments. -/
theorem algebraic : Cert.algebraic_KernelIdeal_ReferenceIdeal := by
  intro m ρ m' ρ' _ hagree
  refine ⟨fun c => Cert.ReferenceIdeal.Value.res_main_v89 m' c, ?_, Cert.ReferenceIdeal.Value.run (F := Ideal) m' ρ'⟩
  refine (θ_run Cert.KernelIdeal.defs _ _).mono (fun _ h c => ⟨(h c).1.trans ?_, (h c).2⟩)
    (Cert.KernelIdeal.RunValue.run (F := Ideal) m ρ)
  obtain ⟨h0, h1, h2, h3, h4, h5⟩ := hagree c
  show _ = Cert.ReferenceIdeal.Value.res_main_v89 m' c
  rw [Cert.KernelIdeal.HostRead.result m ρ c, Cert.ReferenceIdeal.Read.val_main_v89_eq m' c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
